-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x64 : Shape := ⟨2, ![16384, 64]⟩
abbrev S64x2048 : Shape := ⟨2, ![64, 2048]⟩
abbrev S64 : Shape := ⟨1, ![64]⟩
abbrev S2048x64 : Shape := ⟨2, ![2048, 64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S2048x64 : S_.BroadcastsInDim S2048x64 (![] : Fin 0 → Fin S2048x64.rank)
  reducesTo_S2048x64_S_d0_1 : S2048x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64x2048 .f32) (main_arg8 : FVec F S2048x64 .f32) (main_arg9 : FVec F S64 .f32) (main_arg10 : FVec F S64 .f32) (main_v33 : IVec S_ 1) : IVec S_ 1 :=
  let main_v34 : FVec F S64x2048 .f32 := Host.absf main_arg7
  let main_cst_12 : FVec F S_ .f32 := constant S_ .f32 0x7F800000#32
  let main_v35 : FVec F S64x2048 .f32 := broadcastInDim S64x2048 ![] bcast_S_S64x2048 main_cst_12
  let main_v36 : IVec S64x2048 1 := cmpf .olt main_v34 main_v35
  let main_c_13 : IVec S_ 1 := constantI S_ 1 1#1
  let main_v37 : IVec S_ 1 := (fun x v => Host.reduce IntOp.andi x v reducesTo_S64x2048_S_d0_1 h_S_) main_v36 main_c_13
  let main_v38 : IVec S_ 1 := andi main_v33 main_v37
  let main_v39 : FVec F S2048x64 .f32 := Host.absf main_arg8
  let main_cst_14 : FVec F S_ .f32 := constant S_ .f32 0x7F800000#32
  let main_v40 : FVec F S2048x64 .f32 := broadcastInDim S2048x64 ![] bcast_S_S2048x64 main_cst_14
  let main_v41 : IVec S2048x64 1 := cmpf .olt main_v39 main_v40
  let main_c_15 : IVec S_ 1 := constantI S_ 1 1#1
  let main_v42 : IVec S_ 1 := (fun x v => Host.reduce IntOp.andi x v reducesTo_S2048x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S64 .f32) (main_arg5 : FVec F S64x2048 .f32) (main_arg6 : FVec F S64 .f32) (main_arg7 : FVec F S64x2048 .f32) (main_arg8 : FVec F S2048x64 .f32) (main_arg9 : FVec F S64 .f32) (main_arg10 : FVec F S64 .f32) (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2048 .f32 := Host.absf main_arg5
  let main_cst_8 : FVec F S_ .f32 := constant S_ .f32 0x7F800000#32
  let main_v25 : FVec F S64x2048 .f32 := broadcastInDim S64x2048 ![] bcast_S_S64x2048 main_cst_8
  let main_v26 : IVec S64x2048 1 := cmpf .olt main_v24 main_v25
  let main_c_9 : IVec S_ 1 := constantI S_ 1 1#1
  let main_v27 : IVec S_ 1 := (fun x v => Host.reduce IntOp.andi x v reducesTo_S64x2048_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x2048 .f32) (main_arg1 : FVec F S16384x64 .f32) (main_arg2 : FVec F S16384x64 .f32) (main_arg3 : FVec F S64x2048 .f32) (main_arg4 : FVec F S64 .f32) (main_arg5 : FVec F S64x2048 .f32) (main_arg6 : FVec F S64 .f32) (main_arg7 : FVec F S64x2048 .f32) (main_arg8 : FVec F S2048x64 .f32) (main_arg9 : FVec F S64 .f32) (main_arg10 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_arg4 main_arg5 main_arg6 main_arg7 main_arg8 main_arg9 main_arg10 main_v13 main_v16
-- ==== Kernel.lean ====
abbrev S16384x2048 : Shape := ⟨2, ![16384, 2048]⟩
abbrev S16384x64 : Shape := ⟨2, ![16384, 64]⟩
abbrev S64x2048 : Shape := ⟨2, ![64, 2048]⟩
abbrev S64 : Shape := ⟨1, ![64]⟩
abbrev S2048x64 : Shape := ⟨2, ![2048, 64]⟩
abbrev S1x64 : Shape := ⟨2, ![1, 64]⟩
abbrev S512x2048 : Shape := ⟨2, ![512, 2048]⟩
abbrev S512x64 : Shape := ⟨2, ![512, 64]⟩

abbrev nBuf : Space → Nat
  | .hbm => 27
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S16384x64, .f32⟩
  | .hbm, ⟨2, _⟩ => ⟨S16384x64, .f32⟩
  | .hbm, ⟨3, _⟩ => ⟨S64x2048, .f32⟩
  | .hbm, ⟨4, _⟩ => ⟨S64, .f32⟩
  | .hbm, ⟨5, _⟩ => ⟨S64x2048, .f32⟩
  | .hbm, ⟨6, _⟩ => ⟨S64, .f32⟩
  | .hbm, ⟨7, _⟩ => ⟨S64x2048, .f32⟩
  | .hbm, ⟨8, _⟩ => ⟨S2048x64, .f32⟩
  | .hbm, ⟨9, _⟩ => ⟨S64, .f32⟩
  | .hbm, ⟨10, _⟩ => ⟨S64, .f32⟩
  | .hbm, ⟨11, _⟩ => ⟨S2048x64, .f32⟩
  | .hbm, ⟨12, _⟩ => ⟨S2048x64, .bf16⟩
  | .hbm, ⟨13, _⟩ => ⟨S2048x64, .f32⟩
  | .hbm, ⟨14, _⟩ => ⟨S2048x64, .bf16⟩
  | .hbm, ⟨15, _⟩ => ⟨S2048x64, .f32⟩
  | .hbm, ⟨16, _⟩ => ⟨S2048x64, .bf16⟩
  | .hbm, ⟨17, _⟩ => ⟨S64x2048, .f32⟩
  | .hbm, ⟨18, _⟩ => ⟨S64x2048, .bf16⟩
  | .hbm, ⟨19, _⟩ => ⟨S1x64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S1x64, .f32⟩
  | .hbm, ⟨24, _⟩ => ⟨S16384x2048, .f32⟩
  | .hbm, ⟨25, _⟩ => ⟨S16384x64, .f32⟩
  | .hbm, ⟨26, _⟩ => ⟨S16384x64, .f32⟩
  | .local _ .vmem, ⟨0, _⟩ => ⟨S512x2048, .f32⟩
  | .local _ .vmem, ⟨1, _⟩ => ⟨S512x2048, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S2048x64, .bf16⟩
  | .local _ .vmem, ⟨7, _⟩ => ⟨S1x64, .f32⟩
  | .local _ .vmem, ⟨8, _⟩ => ⟨S2048x64, .bf16⟩
  | .local _ .vmem, ⟨9, _⟩ => ⟨S1x64, .f32⟩
  | .local _ .vmem, ⟨10, _⟩ => ⟨S2048x64, .bf16⟩
  | .local _ .vmem, ⟨11, _⟩ => ⟨S64x2048, .bf16⟩
  | .local _ .vmem, ⟨12, _⟩ => ⟨S1x64, .f32⟩
  | .local _ .vmem, ⟨13, _⟩ => ⟨S1x64, .f32⟩
  | .local _ .vmem, ⟨14, _⟩ => ⟨S512x2048, .f32⟩
  | .local _ .vmem, ⟨15, _⟩ => ⟨S512x2048, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S64x2048_S2048x64_1_0 : S64x2048.Transposes [1, 0] S2048x64
  bitsLt_bf16_f32 : FTy.bits .bf16 < FTy.bits .f32
  transposes_S2048x64_S64x2048_1_0 : S2048x64.Transposes [1, 0] S64x2048
  shapeCasts_S64_S1x64 : S64.ShapeCasts S1x64
  inb_S512x2048_S512x2048_0_0 : ∀ a, (![0, 0] : Fin 2 → Nat) a + S512x2048.size a ≤ S512x2048.size a
  h_S512x2048 : 0 < S512x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  dot_S512x2048_S2048x64_S512x64_1_0_0_1_n_n_wf : DotDims.WF S512x2048 S2048x64 S512x64 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S16384x64.size a
  hwx0_1 : ∀ i : grid0.Coords, EltTy.bits .f32 = 32 ∨ (Rect.block (s := S16384x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .bf16 = 32 ∨ (Rect.block (s := S2048x64) S2048x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S2048x64.size a
  hwx0_5 : ∀ i : grid0.Coords, EltTy.bits .bf16 = 32 ∨ (Rect.block (s := S2048x64) S2048x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S2048x64.size a
  hwx0_7 : ∀ i : grid0.Coords, EltTy.bits .bf16 = 32 ∨ (Rect.block (s := S2048x64) S2048x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x2048.size a ≤ S64x2048.size a
  hwx0_8 : ∀ i : grid0.Coords, EltTy.bits .bf16 = 32 ∨ (Rect.block (s := S64x2048) S64x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x2048.size a ≤ S16384x2048.size a
  hwx0_11 : ∀ i : grid0.Coords, EltTy.bits .f32 = 32 ∨ (Rect.block (s := S16384x2048) S512x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x64.size a ≤ S16384x64.size a
  hwx0_12 : ∀ i : grid0.Coords, EltTy.bits .f32 = 32 ∨ (Rect.block (s := S16384x64) S512x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x64.size a ≤ S16384x64.size a
  hwx0_13 : ∀ i : grid0.Coords, EltTy.bits .f32 = 32 ∨ (Rect.block (s := S16384x64) S512x64.size (cc0_transform_13 i) (hinb0_13 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S2048x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5) S2048x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v7) S64x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v11) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v12) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S512x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S512x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_2) S512x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384x64 : Shape := ⟨2, ![16384, 64]⟩
abbrev S64x2048 : Shape := ⟨2, ![64, 2048]⟩
abbrev S64 : Shape := ⟨1, ![64]⟩
abbrev S2048x64 : Shape := ⟨2, ![2048, 64]⟩
abbrev S1x64 : Shape := ⟨2, ![1, 64]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x64, .f32⟩
  | .hbm, ⟨2, _⟩ => ⟨S16384x64, .f32⟩
  | .hbm, ⟨3, _⟩ => ⟨S64x2048, .f32⟩
  | .hbm, ⟨4, _⟩ => ⟨S64, .f32⟩
  | .hbm, ⟨5, _⟩ => ⟨S64x2048, .f32⟩
  | .hbm, ⟨6, _⟩ => ⟨S64, .f32⟩
  | .hbm, ⟨7, _⟩ => ⟨S64x2048, .f32⟩
  | .hbm, ⟨8, _⟩ => ⟨S2048x64, .f32⟩
  | .hbm, ⟨9, _⟩ => ⟨S64, .f32⟩
  | .hbm, ⟨10, _⟩ => ⟨S64, .f32⟩
  | .hbm, ⟨11, _⟩ => ⟨S2048x64, .f32⟩
  | .hbm, ⟨12, _⟩ => ⟨S16384x64, .f32⟩
  | .hbm, ⟨13, _⟩ => ⟨S1x64, .f32⟩
  | .hbm, ⟨14, _⟩ => ⟨S16384x64, .f32⟩
  | .hbm, ⟨15, _⟩ => ⟨S16384x64, .f32⟩
  | .hbm, ⟨16, _⟩ => ⟨S_, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S16384x64, .f32⟩
  | .hbm, ⟨21, _⟩ => ⟨S16384x64, .i1⟩
  | .hbm, ⟨22, _⟩ => ⟨S16384x64, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S16384x64, .f32⟩
  | .hbm, ⟨28, _⟩ => ⟨S16384x64, .f32⟩
  | .hbm, ⟨29, _⟩ => ⟨S16384x64, .f32⟩
  | .hbm, ⟨30, _⟩ => ⟨S2048x64, .f32⟩
  | .hbm, ⟨31, _⟩ => ⟨S16384x64, .f32⟩
  | .hbm, ⟨32, _⟩ => ⟨S1x64, .f32⟩
  | .hbm, ⟨33, _⟩ => ⟨S16384x64, .f32⟩
  | .hbm, ⟨34, _⟩ => ⟨S16384x64, .f32⟩
  | .hbm, ⟨35, _⟩ => ⟨S16384x64, .f32⟩
  | .hbm, ⟨36, _⟩ => ⟨S_, .f32⟩
  | .hbm, ⟨37, _⟩ => ⟨S16384x64, .f32⟩
  | .hbm, ⟨38, _⟩ => ⟨S16384x64, .f32⟩
  | .hbm, ⟨39, _⟩ => ⟨S16384x64, .f32⟩
  | .hbm, ⟨40, _⟩ => ⟨S64, .f32⟩
  | .hbm, ⟨41, _⟩ => ⟨S1x64, .f32⟩
  | .hbm, ⟨42, _⟩ => ⟨S16384x64, .f32⟩
  | .hbm, ⟨43, _⟩ => ⟨S16384x64, .f32⟩
  | .hbm, ⟨44, _⟩ => ⟨S16384x64, .f32⟩
  | .hbm, ⟨45, _⟩ => ⟨S1x64, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S2048x64, .f32⟩
  | .hbm, ⟨50, _⟩ => ⟨S16384x64, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S16384x64, .f32⟩
  | .hbm, ⟨55, _⟩ => ⟨S16384x64, .f32⟩
  | .hbm, ⟨56, _⟩ => ⟨S16384x64, .f32⟩
  | .hbm, ⟨57, _⟩ => ⟨S16384x64, .f32⟩
  | .hbm, ⟨58, _⟩ => ⟨S16384x64, .f32⟩
  | .hbm, ⟨59, _⟩ => ⟨S16384x64, .f32⟩
  | .hbm, ⟨60, _⟩ => ⟨S16384x64, .f32⟩
  | .hbm, ⟨61, _⟩ => ⟨S16384x64, .f32⟩
  | .hbm, ⟨62, _⟩ => ⟨S64x2048, .f32⟩
  | .hbm, ⟨63, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S2048x64_S64x2048_1_0 : S2048x64.Transposes [1, 0] S64x2048
  dot_S16384x2048_S2048x64_S16384x64_1_0_0_1_n_n_wf : DotDims.WF S16384x2048 S2048x64 S16384x64 [1] [0] [0] [1] [] []
  dot_S16384x64_S64x2048_S16384x2048_1_0_0_1_n_n_wf : DotDims.WF S16384x64 S64x2048 S16384x2048 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf
def dot_S16384x64_S64x2048_S16384x2048_1_0_0_1_n_n : DotDims S16384x64 S64x2048 S16384x2048 where
  lhsContracting := [1]
  rhsContracting := [0]
  lhsNonContracting := [0]
  rhsNonContracting := [1]
  lhsBatch := []
  rhsBatch := []
  wf := dot_S16384x64_S64x2048_S16384x2048_1_0_0_1_n_n_wf

class Facts : Prop extends Facts₀ where

variable [Facts]
-- ==== Proof.Spec.lean ====
/-
  One step of a complex-valued diagonal state update, entry by entry, on the extended reals.

  For one row and one of the 64 state channels, from the three projections of the row
    dtp = <x, W_dt[j]> + b_dt[j],   php = <x, W_ph[j]> + b_ph[j],   bv = <x, W_B[j]>,
  the step size is  dt = softplus dtp = max dtp 0 + log (1 + exp (-|dtp|)),
  the rotation angle  dt * a_im + tanh php * pi  (pi the binary32 word both programs print),
  the decay  exp (-dt * a_exp)  with  a_exp = exp a_re,  and the state (s_re, s_im) is rotated by the angle,
  scaled by the decay, and the input bv is added to the real part:
    new_re = (s_re cos - s_im sin) * decay + bv,    new_im = (s_re sin + s_im cos) * decay.
  Both programs compute softplus through a select on "d is not equal to itself", d = dtp - 0: no extended real
  differs from itself, so the select always takes the branch above.  One program negates by "0 - v", the other
  by "-v": the same extended real.
-/
import Idealize.ShloMosaic.PureOps.Ideal
import Idealize.ShloMosaic.PureOps.Ideal.Laws
import Idealize.ShloMosaic.Lib.ValueIdx

noncomputable section

namespace Cert.StateStep

open Idealize.ShloMosaic Idealize.ShloMosaic.ValueIdx
open scoped BigOperators

/-- The binary32 zero word, as both programs print it. -/
abbrev zeroWord : EReal := FloatOps.ofBits (F := Ideal) .f32 0x00000000#32
/-- The binary32 word nearest pi, as both programs print it (never evaluated: the same word on both sides). -/
abbrev piWord : EReal := FloatOps.ofBits (F := Ideal) .f32 0x40490FDB#32

/-- softplus a = max a 0 + log (1 + exp (-|a|)). -/
def softplus (a : EReal) : EReal :=
  max a 0 + Ideal.log1p (Ideal.exp (-(FloatOps.absf (F := Ideal) (φ := .f32) a)))

/-- The rotation angle of one channel. -/
def angle (dtp php ai : EReal) : EReal := softplus dtp * ai + Ideal.tanh php * piWord

/-- The decay factor of one channel. -/
def decay (dtp ae : EReal) : EReal := Ideal.exp (-(softplus dtp) * ae)

/-- The new real part. -/
def newRe (dtp php bv sre sim ae ai : EReal) : EReal :=
  (sre * Ideal.cos (angle dtp php ai) - sim * Ideal.sin (angle dtp php ai)) * decay dtp ae + bv

/-- The new imaginary part. -/
def newIm (dtp php sre sim ae ai : EReal) : EReal :=
  (sre * Ideal.sin (angle dtp php ai) + sim * Ideal.cos (angle dtp php ai)) * decay dtp ae

theorem zeroWord_eq : zeroWord = 0 := Ideal.ofBits_zero_f32

/-- No extended real differs from itself (ordered reading). -/
theorem cmp_one_self (a : EReal) : Ideal.cmp .one a a = 0#1 := by
  simp [Ideal.cmp]

/-- No extended real differs from itself (unordered reading: the same comparison here). -/
theorem cmp_une_self (a : EReal) : Ideal.cmp .une a a = 0#1 := by
  simp [Ideal.cmp]

/-- A select on a false condition takes its second value. -/
theorem select_false {α : Type} (a b : α) : Scalar.select (0#1) a b = b := by
  unfold Scalar.select
  rw [if_neg (by decide)]

/-- softplus as the first program spells it: the guard by the ordered comparison, the negation as "0 - v". -/
theorem softplus_sub (a : EReal) :
    Scalar.select (Ideal.cmp .one (a - zeroWord) (a - zeroWord)) (a + zeroWord)
      (max a zeroWord + Ideal.log1p (Ideal.exp (zeroWord - FloatOps.absf (F := Ideal) (φ := .f32) (a - zeroWord))))
      = softplus a := by
  rw [cmp_one_self, select_false, zeroWord_eq, sub_zero, zero_sub]
  rfl

/-- softplus as the second program spells it: the guard by the unordered comparison, the negation as "-v". -/
theorem softplus_neg (a : EReal) :
    Scalar.select (Ideal.cmp .une (a - zeroWord) (a - zeroWord)) (a + zeroWord)
      (max a zeroWord + Ideal.log1p (Ideal.exp (-(FloatOps.absf (F := Ideal) (φ := .f32) (a - zeroWord)))))
      = softplus a := by
  rw [cmp_une_self, select_false, zeroWord_eq, sub_zero]
  rfl

/-! ## The three results as functions of the eleven argument arrays

Rows are the 16384 batch entries, channels the 64 state coordinates, features the 2048 model coordinates.
Every weight matrix is read as it is given (W_dt, W_ph, W_B are [64, 2048]; W_C is [2048, 64]): a program that
transposes a matrix first reads the same entries. -/

/-- A matrix of extended reals of literal extents. -/
abbrev Mat (a b : Nat) : Type := (⟨2, ![a, b]⟩ : Shape).Idx → EReal
/-- A vector of extended reals of literal extent. -/
abbrev Row (a : Nat) : Type := (⟨1, ![a]⟩ : Shape).Idx → EReal

/-- The projection of row `r` of `x` on row `j` of a [64, 2048] weight matrix. -/
def proj (x : Mat 16384 2048) (w : Mat 64 2048) (r : Fin 16384) (j : Fin 64) : EReal :=
  ∑ k : Fin 2048, x (ix2 r k) * w (ix2 j k)

/-- The new real part at row `r`, channel `j`. -/
def re (x : Mat 16384 2048) (sre sim : Mat 16384 64) (wdt : Mat 64 2048) (bdt : Row 64) (wph : Mat 64 2048) (bph : Row 64)
    (wb : Mat 64 2048) (are aim : Row 64) (r : Fin 16384) (j : Fin 64) : EReal :=
  newRe (proj x wdt r j + bdt (ix1 j)) (proj x wph r j + bph (ix1 j)) (proj x wb r j) (sre (ix2 r j)) (sim (ix2 r j))
    (Ideal.exp (are (ix1 j))) (aim (ix1 j))

/-- The new imaginary part at row `r`, channel `j`. -/
def im (x : Mat 16384 2048) (sre sim : Mat 16384 64) (wdt : Mat 64 2048) (bdt : Row 64) (wph : Mat 64 2048) (bph : Row 64)
    (are aim : Row 64) (r : Fin 16384) (j : Fin 64) : EReal :=
  newIm (proj x wdt r j + bdt (ix1 j)) (proj x wph r j + bph (ix1 j)) (sre (ix2 r j)) (sim (ix2 r j))
    (Ideal.exp (are (ix1 j))) (aim (ix1 j))

/-- The output at row `r`, feature `d`: the new real part of the row against row `d` of W_C. -/
def out (x : Mat 16384 2048) (sre sim : Mat 16384 64) (wdt : Mat 64 2048) (bdt : Row 64) (wph : Mat 64 2048) (bph : Row 64)
    (wb : Mat 64 2048) (wc : Mat 2048 64) (are aim : Row 64) (r : Fin 16384) (d : Fin 2048) : EReal :=
  ∑ j : Fin 64, re x sre sim wdt bdt wph bph wb are aim r j * wc (ix2 d j)

/-- The three result arrays as functions of the eleven argument arrays. -/
def reArr (x : Mat 16384 2048) (sre sim : Mat 16384 64) (wdt : Mat 64 2048) (bdt : Row 64) (wph : Mat 64 2048) (bph : Row 64)
    (wb : Mat 64 2048) (are aim : Row 64) : Mat 16384 64 :=
  fun i => re x sre sim wdt bdt wph bph wb are aim (i 0) (i 1)

def imArr (x : Mat 16384 2048) (sre sim : Mat 16384 64) (wdt : Mat 64 2048) (bdt : Row 64) (wph : Mat 64 2048) (bph : Row 64)
    (are aim : Row 64) : Mat 16384 64 :=
  fun i => im x sre sim wdt bdt wph bph are aim (i 0) (i 1)

def outArr (x : Mat 16384 2048) (sre sim : Mat 16384 64) (wdt : Mat 64 2048) (bdt : Row 64) (wph : Mat 64 2048) (bph : Row 64)
    (wb : Mat 64 2048) (wc : Mat 2048 64) (are aim : Row 64) : Mat 16384 2048 :=
  fun i => out x sre sim wdt bdt wph bph wb wc are aim (i 0) (i 1)

end Cert.StateStep

end
-- ==== Proof.LibProductEntry.lean ====
/-
  A matrix product read at an entry.

  Both programs contract the second axis of a left matrix `[M, K]` with the first axis of a right matrix `[K, N]`.
  At the ideal values the product's entry `(p, q)` is `∑ k : Fin K, x (p, k) * w (k, q)`, whether it is the host's
  product or the kernel's matrix multiplication onto a zero accumulator. The statement is proved once for any
  dimension record whose four coordinate maps are the expected ones; each record of the two programs then supplies
  those four facts.
-/
import Idealize.ShloMosaic.PureOps.Ideal
import Idealize.ShloMosaic.PureOps.Ideal.Laws
import Idealize.ShloMosaic.Lib.ValueIdx

noncomputable section

open scoped BigOperators

namespace Cert.ProductEntry

open Idealize.ShloMosaic Idealize.ShloMosaic.ValueIdx

/-- The sum over a one-axis contraction shape, re-indexed by the axis' coordinate: for a record whose left index is
    `(p, k)` and right index `(k, q)` at output `(p, q)` and contraction position `k`. -/
theorem sum_apply {M K N : ℕ} (D : DotDims ⟨2, ![M, K]⟩ ⟨2, ![K, N]⟩ ⟨2, ![M, N]⟩)
    (hr : D.contr.rank = 1) (hs : D.contr.size ⟨0, by omega⟩ = K)
    (hl0 : ∀ i k, (D.lhsIdx i k 0).val = (i 0).val)
    (hl1 : ∀ i k, (D.lhsIdx i k 1).val = (k ⟨0, by omega⟩).val)
    (hr0 : ∀ i k, (D.rhsIdx i k 0).val = (k ⟨0, by omega⟩).val)
    (hr1 : ∀ i k, (D.rhsIdx i k 1).val = (i 1).val)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.ProductEntry

end
-- ==== Proof.KernelRead.lean ====
/-
  The first program's block computation read at an entry.

  One grid point holds a [512, 2048] block of x, the [512, 64] blocks of the two state parts, and the whole
  (transposed) weight matrices [2048, 64], the [64, 2048] output matrix and the [1, 64] rows.  Its three stored
  values, read at row p and channel q (or feature d), are the state step of Spec.lean at the three projections
    sum_k x(p, k) * w(k, q)   (+ the row's entry (0, q) for the two biased ones),
  and the output is  sum_j new_re(p, j) * wc(j, d).  A matrix product onto a zero accumulator is the plain sum over
  the contracted coordinate; a change of float format is the identity on the extended reals.
-/
import proofs.«117804_j24653112279098_1_alg».proof.Proof.Gen.KernelIdeal.Skeleton
import proofs.«117804_j24653112279098_1_alg».proof.Proof.Spec
import proofs.«117804_j24653112279098_1_alg».proof.Proof.LibProductEntry
import Idealize.ShloMosaic.Lib.ValueLayout
import Idealize.ShloMosaic.Lib.Pipeline.Value
import Idealize.ShloMosaic.PureOps.Ideal.Laws

noncomputable section

open scoped BigOperators

namespace Cert.KernelRead

open Cert.KernelIdeal Cert.KernelIdeal.Gen Cert.StateStep Idealize.ShloMosaic Idealize.ShloMosaic.ValueIdx

/-! ## The two dimension records: left index (p, k), right index (k, q) -/

theorem inL0 (i : S512x64.Idx) (k : dot_S512x2048_S2048x64_S512x64_1_0_0_1_n_n.contr.Idx) :
    (dot_S512x2048_S2048x64_S512x64_1_0_0_1_n_n.lhsIdx i k 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem inL1 (i : S512x64.Idx) (k : dot_S512x2048_S2048x64_S512x64_1_0_0_1_n_n.contr.Idx) :
    (dot_S512x2048_S2048x64_S512x64_1_0_0_1_n_n.lhsIdx i k 1).val = (k ⟨0, by decide⟩).val :=
  dot_S512x2048_S2048x64_S512x64_1_0_0_1_n_n.lhsIdx_val_of_single rfl i k
theorem inR0 (i : S512x64.Idx) (k : dot_S512x2048_S2048x64_S512x64_1_0_0_1_n_n.contr.Idx) :
    (dot_S512x2048_S2048x64_S512x64_1_0_0_1_n_n.rhsIdx i k 0).val = (k ⟨0, by decide⟩).val :=
  dot_S512x2048_S2048x64_S512x64_1_0_0_1_n_n.rhsIdx_val_of_single rfl i k
theorem inR1 (i : S512x64.Idx) (k : dot_S512x2048_S2048x64_S512x64_1_0_0_1_n_n.contr.Idx) :
    (dot_S512x2048_S2048x64_S512x64_1_0_0_1_n_n.rhsIdx i k 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

theorem outL0 (i : S512x2048.Idx) (k : dot_S512x64_S64x2048_S512x2048_1_0_0_1_n_n.contr.Idx) :
    (dot_S512x64_S64x2048_S512x2048_1_0_0_1_n_n.lhsIdx i k 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem outL1 (i : S512x2048.Idx) (k : dot_S512x64_S64x2048_S512x2048_1_0_0_1_n_n.contr.Idx) :
    (dot_S512x64_S64x2048_S512x2048_1_0_0_1_n_n.lhsIdx i k 1).val = (k ⟨0, by decide⟩).val :=
  dot_S512x64_S64x2048_S512x2048_1_0_0_1_n_n.lhsIdx_val_of_single rfl i k
theorem outR0 (i : S512x2048.Idx) (k : dot_S512x64_S64x2048_S512x2048_1_0_0_1_n_n.contr.Idx) :
    (dot_S512x64_S64x2048_S512x2048_1_0_0_1_n_n.rhsIdx i k 0).val = (k ⟨0, by decide⟩).val :=
  dot_S512x64_S64x2048_S512x2048_1_0_0_1_n_n.rhsIdx_val_of_single rfl i k
theorem outR1 (i : S512x2048.Idx) (k : dot_S512x64_S64x2048_S512x2048_1_0_0_1_n_n.contr.Idx) :
    (dot_S512x64_S64x2048_S512x2048_1_0_0_1_n_n.rhsIdx i k 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- A block of x against a [2048, 64] matrix, onto zero: entry (p, q) is the sum over the 2048 features. -/
theorem proj_at (X : FVec Ideal S512x2048 .bf16) (W : FVec Ideal S2048x64 .bf16) (p : Fin 512) (q : Fin 64) :
    matmul dot_S512x2048_S2048x64_S512x64_1_0_0_1_n_n none X W (constant S512x64 .f32 0x00000000#32) (ix2 p q)
      = ∑ k : Fin 2048, X (ix2 p k) * W (ix2 k q) :=
  (Ideal.matmul_constant_zero_apply dot_S512x2048_S2048x64_S512x64_1_0_0_1_n_n none X W (ix2 p q)).trans
    (Cert.ProductEntry.sum_apply dot_S512x2048_S2048x64_S512x64_1_0_0_1_n_n rfl rfl inL0 inL1 inR0 inR1 X W p q)

/-- A [512, 64] block against the [64, 2048] output matrix, onto zero: entry (p, d) is the sum over the 64 channels. -/
theorem back_at (Y : FVec Ideal S512x64 .bf16) (W : FVec Ideal S64x2048 .bf16) (p : Fin 512) (d : Fin 2048) :
    matmul dot_S512x64_S64x2048_S512x2048_1_0_0_1_n_n none Y W (constant S512x2048 .f32 0x00000000#32) (ix2 p d)
      = ∑ j : Fin 64, Y (ix2 p j) * W (ix2 j d) :=
  (Ideal.matmul_constant_zero_apply dot_S512x64_S64x2048_S512x2048_1_0_0_1_n_n none Y W (ix2 p d)).trans
    (Cert.ProductEntry.sum_apply dot_S512x64_S64x2048_S512x2048_1_0_0_1_n_n rfl rfl outL0 outL1 outR0 outR1 Y W p d)

/-- A [1, 64] row spread over the 512 rows of a block reads its entry (0, q) everywhere in column q. -/
theorem row_at (v : Vec Ideal S1x64 .f32) (p : Fin 512) (q : Fin 64) :
    broadcastTo S512x64 (shapeCast S1x64 v shapeCasts_S1x64_S1x64) broadcasts_S1x64_S512x64 (ix2 p q) = v (ix2 (0 : Fin 1) q) := by
  rw [shapeCast_self]
  exact broadcastTo_1b_ab_apply v broadcasts_S1x64_S512x64 p q

/-- A projection of the block plus a bias row, as the body forms it (a change of format and a cast to the same shape
    are identities). -/
def preAct (X : Vec Ideal S512x2048 .f32) (W : Vec Ideal S2048x64 .bf16) (b : Vec Ideal S1x64 .f32) : FVec Ideal S512x64 .f32 :=
  addf (matmul dot_S512x2048_S2048x64_S512x64_1_0_0_1_n_n none (k0_pay8 X) (shapeCast S2048x64 W shapeCasts_S2048x64_S2048x64 : FVec Ideal S2048x64 .bf16)
      (constant S512x64 .f32 0x00000000#32))
    (broadcastTo S512x64 (shapeCast S1x64 b shapeCasts_S1x64_S1x64) broadcasts_S1x64_S512x64)

theorem preAct_at (X : Vec Ideal S512x2048 .f32) (W : Vec Ideal S2048x64 .bf16) (b : Vec Ideal S1x64 .f32) (p : Fin 512) (q : Fin 64) :
    preAct X W b (ix2 p q) = (∑ k : Fin 2048, X (ix2 p k) * W (ix2 k q)) + b (ix2 (0 : Fin 1) q) := by
  show matmul dot_S512x2048_S2048x64_S512x64_1_0_0_1_n_n none (k0_pay8 X) (shapeCast S2048x64 W shapeCasts_S2048x64_S2048x64 : FVec Ideal S2048x64 .bf16)
      (constant S512x64 .f32 0x00000000#32) (ix2 p q)
    + broadcastTo S512x64 (shapeCast S1x64 b shapeCasts_S1x64_S1x64) broadcasts_S1x64_S512x64 (ix2 p q) = _
  rw [row_at, shapeCast_self, proj_at]
  rfl

/-- The unbiased projection (the input term of the real part). -/
theorem pay9_at (X : Vec Ideal S512x2048 .f32) (W : Vec Ideal S2048x64 .bf16) (p : Fin 512) (q : Fin 64) :
    k0_pay9 X W (ix2 p q) = ∑ k : Fin 2048, X (ix2 p k) * W (ix2 k q) := by
  show matmul dot_S512x2048_S2048x64_S512x64_1_0_0_1_n_n none (k0_pay8 X) (shapeCast S2048x64 W shapeCasts_S2048x64_S2048x64 : FVec Ideal S2048x64 .bf16)
      (constant S512x64 .f32 0x00000000#32) (ix2 p q) = _
  rw [shapeCast_self, proj_at]
  rfl

/-- The step size: softplus of the first biased projection. -/
theorem pay10_at (X : Vec Ideal S512x2048 .f32) (W : Vec Ideal S2048x64 .bf16) (b : Vec Ideal S1x64 .f32) (i : S512x64.Idx) :
    k0_pay10 X W b i = softplus (preAct X W b i) :=
  softplus_sub (preAct X W b i)

/-- Its negation, spelt "0 - v". -/
theorem pay12_at (X : Vec Ideal S512x2048 .f32) (W : Vec Ideal S2048x64 .bf16) (b : Vec Ideal S1x64 .f32) (i : S512x64.Idx) :
    k0_pay12 X W b i = -(softplus (preAct X W b i)) := by
  show zeroWord - k0_pay10 X W b i = _
  rw [pay10_at, zeroWord_eq, zero_sub]

/-- The phase: tanh of the second biased projection, times the pi word. -/
theorem pay11_at (X : Vec Ideal S512x2048 .f32) (W : Vec Ideal S2048x64 .bf16) (b : Vec Ideal S1x64 .f32) (i : S512x64.Idx) :
    k0_pay11 X W b i = Ideal.tanh (preAct X W b i) * piWord := rfl

/-- The decay factor from the negated step size and the [1, 64] row of exp a_re. -/
theorem pay1_at (v37 : FVec Ideal S512x64 .f32) (ae : Vec Ideal S1x64 .f32) (p : Fin 512) (q : Fin 64) :
    k0_pay1 v37 ae (ix2 p q) = Ideal.exp (v37 (ix2 p q) * ae (ix2 (0 : Fin 1) q)) := by
  show Ideal.exp (v37 (ix2 p q) * broadcastTo S512x64 (shapeCast S1x64 ae shapeCasts_S1x64_S1x64) broadcasts_S1x64_S512x64 (ix2 p q)) = _
  rw [row_at]

/-- The angle from the step size, the phase and the [1, 64] row a_im. -/
theorem pay2_at (v32 v35 : FVec Ideal S512x64 .f32) (ai : Vec Ideal S1x64 .f32) (p : Fin 512) (q : Fin 64) :
    k0_pay2 v32 v35 ai (ix2 p q) = v32 (ix2 p q) * ai (ix2 (0 : Fin 1) q) + v35 (ix2 p q) := by
  show v32 (ix2 p q) * broadcastTo S512x64 (shapeCast S1x64 ai shapeCasts_S1x64_S1x64) broadcasts_S1x64_S512x64 (ix2 p q) + v35 (ix2 p q) = _
  rw [row_at]

/-- THE NEW REAL PART of the block at row p, channel q. -/
theorem pay5_at (X : Vec Ideal S512x2048 .f32) (sre sim : Vec Ideal S512x64 .f32) (Wdt : Vec Ideal S2048x64 .bf16)
    (bdt : Vec Ideal S1x64 .f32) (Wph : Vec Ideal S2048x64 .bf16) (bph : Vec Ideal S1x64 .f32) (Wb : Vec Ideal S2048x64 .bf16)
    (ae ai : Vec Ideal S1x64 .f32) (p : Fin 512) (q : Fin 64) :
    k0_pay5 (k0_pay9 X Wb) (k0_pay10 X Wdt bdt) (k0_pay11 X Wph bph) (k0_pay12 X Wdt bdt) ae ai sre sim (ix2 p q)
      = newRe ((∑ k : Fin 2048, X (ix2 p k) * Wdt (ix2 k q)) + bdt (ix2 (0 : Fin 1) q))
          ((∑ k : Fin 2048, X (ix2 p k) * Wph (ix2 k q)) + bph (ix2 (0 : Fin 1) q))
          (∑ k : Fin 2048, X (ix2 p k) * Wb (ix2 k q)) (sre (ix2 p q)) (sim (ix2 p q)) (ae (ix2 (0 : Fin 1) q)) (ai (ix2 (0 : Fin 1) q)) := by
  show (sre (ix2 p q) * Ideal.cos (k0_pay2 (k0_pay10 X Wdt bdt) (k0_pay11 X Wph bph) ai (ix2 p q))
        - sim (ix2 p q) * Ideal.sin (k0_pay2 (k0_pay10 X Wdt bdt) (k0_pay11 X Wph bph) ai (ix2 p q)))
      * k0_pay1 (k0_pay12 X Wdt bdt) ae (ix2 p q) + k0_pay9 X Wb (ix2 p q) = _
  rw [pay2_at, pay1_at, pay10_at, pay11_at, pay12_at, pay9_at, preAct_at, preAct_at]
  rfl

/-- THE NEW IMAGINARY PART of the block at row p, channel q. -/
theorem pay6_at (X : Vec Ideal S512x2048 .f32) (sre sim : Vec Ideal S512x64 .f32) (Wdt : Vec Ideal S2048x64 .bf16)
    (bdt : Vec Ideal S1x64 .f32) (Wph : Vec Ideal S2048x64 .bf16) (bph : Vec Ideal S1x64 .f32)
    (ae ai : Vec Ideal S1x64 .f32) (p : Fin 512) (q : Fin 64) :
    k0_pay6 (k0_pay10 X Wdt bdt) (k0_pay11 X Wph bph) (k0_pay12 X Wdt bdt) ae ai sre sim (ix2 p q)
      = newIm ((∑ k : Fin 2048, X (ix2 p k) * Wdt (ix2 k q)) + bdt (ix2 (0 : Fin 1) q))
          ((∑ k : Fin 2048, X (ix2 p k) * Wph (ix2 k q)) + bph (ix2 (0 : Fin 1) q))
          (sre (ix2 p q)) (sim (ix2 p q)) (ae (ix2 (0 : Fin 1) q)) (ai (ix2 (0 : Fin 1) q)) := by
  show (sre (ix2 p q) * Ideal.sin (k0_pay2 (k0_pay10 X Wdt bdt) (k0_pay11 X Wph bph) ai (ix2 p q))
        + sim (ix2 p q) * Ideal.cos (k0_pay2 (k0_pay10 X Wdt bdt) (k0_pay11 X Wph bph) ai (ix2 p q)))
      * k0_pay1 (k0_pay12 X Wdt bdt) ae (ix2 p q) = _
  rw [pay2_at, pay1_at, pay10_at, pay11_at, pay12_at, preAct_at, preAct_at]
  rfl

/-- THE OUTPUT of the block at row p, feature d: the block's new real part against the [64, 2048] matrix. -/
theorem pay7_at (v18 v32 v35 v37 : FVec Ideal S512x64 .f32) (ae ai : Vec Ideal S1x64 .f32) (sre sim : Vec Ideal S512x64 .f32)
    (Wc : Vec Ideal S64x2048 .bf16) (p : Fin 512) (d : Fin 2048) :
    k0_pay7 v18 v32 v35 v37 ae ai sre sim Wc (ix2 p d)
      = ∑ j : Fin 64, k0_pay5 v18 v32 v35 v37 ae ai sre sim (ix2 p j) * Wc (ix2 j d) := by
  show matmul dot_S512x64_S64x2048_S512x2048_1_0_0_1_n_n none
      (truncf .bf16 (k0_pay5 v18 v32 v35 v37 ae ai sre sim) bitsLt_bf16_f32)
      (shapeCast S64x2048 Wc shapeCasts_S64x2048_S64x2048 : FVec Ideal S64x2048 .bf16) (constant S512x2048 .f32 0x00000000#32) (ix2 p d) = _
  rw [shapeCast_self, back_at]
  rfl

end Cert.KernelRead

end
-- ==== Proof.BlockStep.lean ====
/-
  One block against the whole arrays.

  If a [512, 2048] block X holds rows base*512 .. base*512+511 of x, the two [512, 64] state blocks hold the same
  rows of the state arrays, the [2048, 64] matrices are the transposes of the given [64, 2048] weights, the
  [64, 2048] matrix the transpose of the given [2048, 64] output weights, and the [1, 64] rows are the bias vectors,
  exp a_re and a_im laid as rows, then the block computation at local row p is the state step of Spec.lean at the
  global row r = base*512 + p: the block's sums over the features are the row's projections.
-/
import proofs.«117804_j24653112279098_1_alg».proof.Proof.KernelRead

noncomputable section

open scoped BigOperators

namespace Cert.BlockStep

open Cert.KernelIdeal Cert.KernelIdeal.Gen Cert.StateStep Cert.KernelRead Idealize.ShloMosaic Idealize.ShloMosaic.ValueIdx

variable (A0 : Mat 16384 2048) (A1 A2 : Mat 16384 64) (A3 : Mat 64 2048) (A4 : Row 64) (A5 : Mat 64 2048) (A6 : Row 64)
  (A7 : Mat 64 2048) (A8 : Mat 2048 64) (A9 A10 : Row 64)
  (X : Vec Ideal S512x2048 .f32) (sre sim : Vec Ideal S512x64 .f32) (Wdt : Vec Ideal S2048x64 .bf16) (bdt : Vec Ideal S1x64 .f32)
  (Wph : Vec Ideal S2048x64 .bf16) (bph : Vec Ideal S1x64 .f32) (Wb : Vec Ideal S2048x64 .bf16) (Wc : Vec Ideal S64x2048 .bf16)
  (ae ai : Vec Ideal S1x64 .f32)

/-- The new real part of the block at local row p is that of the arrays at the global row r. -/
theorem blk_re (p : Fin 512) (r : Fin 16384)
    (hX : ∀ k : Fin 2048, X (ix2 p k) = A0 (ix2 r k))
    (hsre : ∀ q : Fin 64, sre (ix2 p q) = A1 (ix2 r q)) (hsim : ∀ q : Fin 64, sim (ix2 p q) = A2 (ix2 r q))
    (hWdt : ∀ (k : Fin 2048) (q : Fin 64), Wdt (ix2 k q) = A3 (ix2 q k)) (hbdt : ∀ q : Fin 64, bdt (ix2 (0 : Fin 1) q) = A4 (ix1 q))
    (hWph : ∀ (k : Fin 2048) (q : Fin 64), Wph (ix2 k q) = A5 (ix2 q k)) (hbph : ∀ q : Fin 64, bph (ix2 (0 : Fin 1) q) = A6 (ix1 q))
    (hWb : ∀ (k : Fin 2048) (q : Fin 64), Wb (ix2 k q) = A7 (ix2 q k))
    (hae : ∀ q : Fin 64, ae (ix2 (0 : Fin 1) q) = Ideal.exp (A9 (ix1 q))) (hai : ∀ q : Fin 64, ai (ix2 (0 : Fin 1) q) = A10 (ix1 q))
    (q : Fin 64) :
    k0_pay5 (k0_pay9 X Wb) (k0_pay10 X Wdt bdt) (k0_pay11 X Wph bph) (k0_pay12 X Wdt bdt) ae ai sre sim (ix2 p q)
      = re A0 A1 A2 A3 A4 A5 A6 A7 A9 A10 r q := by
  rw [pay5_at]
  simp only [hX, hsre, hsim, hWdt, hbdt, hWph, hbph, hWb, hae, hai]
  rfl

/-- The new imaginary part of the block at local row p is that of the arrays at the global row r. -/
theorem blk_im (p : Fin 512) (r : Fin 16384)
    (hX : ∀ k : Fin 2048, X (ix2 p k) = A0 (ix2 r k))
    (hsre : ∀ q : Fin 64, sre (ix2 p q) = A1 (ix2 r q)) (hsim : ∀ q : Fin 64, sim (ix2 p q) = A2 (ix2 r q))
    (hWdt : ∀ (k : Fin 2048) (q : Fin 64), Wdt (ix2 k q) = A3 (ix2 q k)) (hbdt : ∀ q : Fin 64, bdt (ix2 (0 : Fin 1) q) = A4 (ix1 q))
    (hWph : ∀ (k : Fin 2048) (q : Fin 64), Wph (ix2 k q) = A5 (ix2 q k)) (hbph : ∀ q : Fin 64, bph (ix2 (0 : Fin 1) q) = A6 (ix1 q))
    (hae : ∀ q : Fin 64, ae (ix2 (0 : Fin 1) q) = Ideal.exp (A9 (ix1 q))) (hai : ∀ q : Fin 64, ai (ix2 (0 : Fin 1) q) = A10 (ix1 q))
    (q : Fin 64) :
    k0_pay6 (k0_pay10 X Wdt bdt) (k0_pay11 X Wph bph) (k0_pay12 X Wdt bdt) ae ai sre sim (ix2 p q)
      = im A0 A1 A2 A3 A4 A5 A6 A9 A10 r q := by
  rw [pay6_at]
  simp only [hX, hsre, hsim, hWdt, hbdt, hWph, hbph, hae, hai]
  rfl

/-- The output of the block at local row p is that of the arrays at the global row r. -/
theorem blk_out (p : Fin 512) (r : Fin 16384)
    (hX : ∀ k : Fin 2048, X (ix2 p k) = A0 (ix2 r k))
    (hsre : ∀ q : Fin 64, sre (ix2 p q) = A1 (ix2 r q)) (hsim : ∀ q : Fin 64, sim (ix2 p q) = A2 (ix2 r q))
    (hWdt : ∀ (k : Fin 2048) (q : Fin 64), Wdt (ix2 k q) = A3 (ix2 q k)) (hbdt : ∀ q : Fin 64, bdt (ix2 (0 : Fin 1) q) = A4 (ix1 q))
    (hWph : ∀ (k : Fin 2048) (q : Fin 64), Wph (ix2 k q) = A5 (ix2 q k)) (hbph : ∀ q : Fin 64, bph (ix2 (0 : Fin 1) q) = A6 (ix1 q))
    (hWb : ∀ (k : Fin 2048) (q : Fin 64), Wb (ix2 k q) = A7 (ix2 q k))
    (hWc : ∀ (j : Fin 64) (d : Fin 2048), Wc (ix2 j d) = A8 (ix2 d j))
    (hae : ∀ q : Fin 64, ae (ix2 (0 : Fin 1) q) = Ideal.exp (A9 (ix1 q))) (hai : ∀ q : Fin 64, ai (ix2 (0 : Fin 1) q) = A10 (ix1 q))
    (d : Fin 2048) :
    k0_pay7 (k0_pay9 X Wb) (k0_pay10 X Wdt bdt) (k0_pay11 X Wph bph) (k0_pay12 X Wdt bdt) ae ai sre sim Wc (ix2 p d)
      = out A0 A1 A2 A3 A4 A5 A6 A7 A8 A9 A10 r d := by
  rw [pay7_at]
  refine Finset.sum_congr rfl fun j _ => ?_
  rw [hWc, blk_re A0 A1 A2 A3 A4 A5 A6 A7 A9 A10 X sre sim Wdt bdt Wph bph Wb ae ai p r hX hsre hsim hWdt hbdt hWph hbph hWb hae hai j]

end Cert.BlockStep

end
-- ==== Proof.Blocks.lean ====
/-
  From blocks to arrays: what the first program's three result arrays hold after the run.
-/
import proofs.«117804_j24653112279098_1_alg».proof.Proof.Gen.KernelIdeal.Value
import proofs.«117804_j24653112279098_1_alg».proof.Proof.KernelRead
import proofs.«117804_j24653112279098_1_alg».proof.Proof.BlockStep
import Idealize.ShloMosaic.Lib.StableHlo.Run
import Idealize.ShloMosaic.Lib.ValueLayout

noncomputable section

open scoped BigOperators

namespace Cert.Blocks

open Cert.KernelIdeal Cert.KernelIdeal.Gen Cert.KernelIdeal.Value Cert.StateStep Cert.KernelRead
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the host operations write before the region -/

/-- The first weight matrix as the region finds it: transposed (and changed of format, the identity). -/
theorem wdt_at (c : Dev nD) (k : Fin 2048) (q : Fin 64) :
    V m c main_call0_v1 (ix2 k q) = m ((c : Thread nD τ).loc main_arg3) (ix2 q k) := by
  have e : (V m c main_call0_v1 : S2048x64.Idx → EReal)
      = truncf (F := Ideal) .bf16 (transpose S2048x64 [1, 0] (m ((c : Thread nD τ).loc main_arg3) : FVec Ideal S64x2048 .f32) transposes_S64x2048_S2048x64_1_0 : FVec Ideal S2048x64 .f32) bitsLt_bf16_f32 := by
    dsimp only [Gen.V, Gen.hostOps0]; after_results; rfl
  rw [e]
  exact transpose_ix2_apply _ transposes_S64x2048_S2048x64_1_0 k q

/-- A bias vector as the region finds it: a [1, 64] row. -/
theorem bdt_at (c : Dev nD) (q : Fin 64) :
    V m c main_call0_v8 (ix2 (0 : Fin 1) q) = m ((c : Thread nD τ).loc main_arg4) (ix1 q) := by
  have e : (V m c main_call0_v8 : S1x64.Idx → EReal)
      = shapeCast S1x64 (m ((c : Thread nD τ).loc main_arg4)) shapeCasts_S64_S1x64 := by
    dsimp only [Gen.V, Gen.hostOps0]; after_results; rfl
  rw [e]
  exact shapeCast_a_1a_apply _ shapeCasts_S64_S1x64 0 q

/-- The row of exp a_re as the region finds it. -/
theorem aexp_at (c : Dev nD) (q : Fin 64) :
    V m c main_call0_v11 (ix2 (0 : Fin 1) q) = Ideal.exp (m ((c : Thread nD τ).loc main_arg9) (ix1 q)) := by
  have e : (V m c main_call0_v11 : S1x64.Idx → EReal)
      = shapeCast S1x64 (Host.exp (F := Ideal) (s := S64) (φ := .f32) (m ((c : Thread nD τ).loc main_arg9))) shapeCasts_S64_S1x64 := by
    dsimp only [Gen.V, Gen.hostOps0]; after_results; rfl
  rw [e]
  exact shapeCast_a_1a_apply _ shapeCasts_S64_S1x64 0 q

/-- The second weight matrix as the region finds it. -/
theorem wph_at (c : Dev nD) (k : Fin 2048) (q : Fin 64) :
    V m c main_call0_v3 (ix2 k q) = m ((c : Thread nD τ).loc main_arg5) (ix2 q k) := by
  have e : (V m c main_call0_v3 : S2048x64.Idx → EReal)
      = truncf (F := Ideal) .bf16 (transpose S2048x64 [1, 0] (m ((c : Thread nD τ).loc main_arg5) : FVec Ideal S64x2048 .f32) transposes_S64x2048_S2048x64_1_0 : FVec Ideal S2048x64 .f32) bitsLt_bf16_f32 := by
    dsimp only [Gen.V, Gen.hostOps0]; after_results; rfl
  rw [e]
  exact transpose_ix2_apply _ transposes_S64x2048_S2048x64_1_0 k q

/-- The third weight matrix as the region finds it. -/
theorem wb_at (c : Dev nD) (k : Fin 2048) (q : Fin 64) :
    V m c main_call0_v5 (ix2 k q) = m ((c : Thread nD τ).loc main_arg7) (ix2 q k) := by
  have e : (V m c main_call0_v5 : S2048x64.Idx → EReal)
      = truncf (F := Ideal) .bf16 (transpose S2048x64 [1, 0] (m ((c : Thread nD τ).loc main_arg7) : FVec Ideal S64x2048 .f32) transposes_S64x2048_S2048x64_1_0 : FVec Ideal S2048x64 .f32) bitsLt_bf16_f32 := by
    dsimp only [Gen.V, Gen.hostOps0]; after_results; rfl
  rw [e]
  exact transpose_ix2_apply _ transposes_S64x2048_S2048x64_1_0 k q

/-- The output weight matrix as the region finds it: transposed to [64, 2048]. -/
theorem wc_at (c : Dev nD) (j : Fin 64) (d : Fin 2048) :
    V m c main_call0_v7 (ix2 j d) = m ((c : Thread nD τ).loc main_arg8) (ix2 d j) := by
  have e : (V m c main_call0_v7 : S64x2048.Idx → EReal)
      = truncf (F := Ideal) .bf16 (transpose S64x2048 [1, 0] (m ((c : Thread nD τ).loc main_arg8) : FVec Ideal S2048x64 .f32) transposes_S2048x64_S64x2048_1_0 : FVec Ideal S64x2048 .f32) bitsLt_bf16_f32 := by
    dsimp only [Gen.V, Gen.hostOps0]; after_results; rfl
  rw [e]
  exact transpose_ix2_apply _ transposes_S2048x64_S64x2048_1_0 j d

/-- The second bias vector as the region finds it. -/
theorem bph_at (c : Dev nD) (q : Fin 64) :
    V m c main_call0_v9 (ix2 (0 : Fin 1) q) = m ((c : Thread nD τ).loc main_arg6) (ix1 q) := by
  have e : (V m c main_call0_v9 : S1x64.Idx → EReal)
      = shapeCast S1x64 (m ((c : Thread nD τ).loc main_arg6)) shapeCasts_S64_S1x64 := by
    dsimp only [Gen.V, Gen.hostOps0]; after_results; rfl
  rw [e]
  exact shapeCast_a_1a_apply _ shapeCasts_S64_S1x64 0 q

/-- The row of a_im as the region finds it. -/
theorem aim_at (c : Dev nD) (q : Fin 64) :
    V m c main_call0_v12 (ix2 (0 : Fin 1) q) = m ((c : Thread nD τ).loc main_arg10) (ix1 q) := by
  have e : (V m c main_call0_v12 : S1x64.Idx → EReal)
      = shapeCast S1x64 (m ((c : Thread nD τ).loc main_arg10)) shapeCasts_S64_S1x64 := by
    dsimp only [Gen.V, Gen.hostOps0]; after_results; rfl
  rw [e]
  exact shapeCast_a_1a_apply _ shapeCasts_S64_S1x64 0 q

/-! ## The index maps, decided over the 32 grid points

The three row-blocked inputs and the three outputs all sit at row block `base t`; every other window is the whole of
its array at every point. -/

/-- The row block of grid point `t`. -/
abbrev base (t : Fin cfg0.N) : Nat := win0_12.index t (0 : Fin 2)

theorem idx_facts : ∀ t : Fin cfg0.N,
    win0_0.index t (0 : Fin 2) = base t ∧ win0_0.index t (1 : Fin 2) = 0
    ∧ win0_1.index t (0 : Fin 2) = base t ∧ win0_1.index t (1 : Fin 2) = 0
    ∧ win0_2.index t (0 : Fin 2) = base t ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = base t ∧ win0_11.index t (1 : Fin 2) = 0
    ∧ win0_13.index t (0 : Fin 2) = base t ∧ win0_13.index t (1 : Fin 2) = 0
    ∧ win0_12.index t (1 : Fin 2) = 0 ∧ base t ≤ 31 :=
  (by decide +kernel : ∀ t : Fin grid0.N, _)

/-- Every row block is some point's. -/
theorem idx_onto : ∀ b : Fin 32, ∃ t : Fin cfg0.N, base t = b.val :=
  (by decide +kernel : ∀ b : Fin 32, ∃ t : Fin grid0.N, win0_12.index t (0 : Fin 2) = b.val)

/-! ## The input blocks of a grid point, read off the argument arrays -/

theorem x_blk (c : Dev nD) (t : Fin cfg0.N) (p : Fin 512) (r : Fin 16384) (hr : r.val = base t * 512 + p.val) (k : Fin 2048) :
    (iblk m c 0 t : Vec Ideal S512x2048 .f32) (ix2 p k) = m ((c : Thread nD τ).loc main_arg0) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

theorem sre_blk (c : Dev nD) (t : Fin cfg0.N) (p : Fin 512) (r : Fin 16384) (hr : r.val = base t * 512 + p.val) (q : Fin 64) :
    (iblk m c 1 t : Vec Ideal S512x64 .f32) (ix2 p q) = m ((c : Thread nD τ).loc main_arg1) (ix2 r q) := by
  obtain ⟨-, -, e0, e1, -⟩ := idx_facts t
  show V m c main_arg1 (((cfg0.win 1).blk t).view.emb (ix2 p q)) = _
  rw [V_main_arg1]
  refine congrArg _ (funext fun a => Fin.ext ?_)
  match a with
  | ⟨0, _⟩ => show win0_1.index t (0 : Fin 2) * 512 + 1 * p.val = r.val; omega
  | ⟨1, _⟩ => show win0_1.index t (1 : Fin 2) * 64 + 1 * q.val = q.val; omega

theorem sim_blk (c : Dev nD) (t : Fin cfg0.N) (p : Fin 512) (r : Fin 16384) (hr : r.val = base t * 512 + p.val) (q : Fin 64) :
    (iblk m c 2 t : Vec Ideal S512x64 .f32) (ix2 p q) = m ((c : Thread nD τ).loc main_arg2) (ix2 r q) := by
  obtain ⟨-, -, -, -, e0, e1, -⟩ := idx_facts t
  show V m c main_arg2 (((cfg0.win 2).blk t).view.emb (ix2 p q)) = _
  rw [V_main_arg2]
  refine congrArg _ (funext fun a => Fin.ext ?_)
  match a with
  | ⟨0, _⟩ => show win0_2.index t (0 : Fin 2) * 512 + 1 * p.val = r.val; omega
  | ⟨1, _⟩ => show win0_2.index t (1 : Fin 2) * 64 + 1 * q.val = q.val; omega

theorem wdt_blk (c : Dev nD) (t : Fin cfg0.N) (k : Fin 2048) (q : Fin 64) :
    (iblk m c 3 t : Vec Ideal S2048x64 .bf16) (ix2 k q) = m ((c : Thread nD τ).loc main_arg3) (ix2 q k) := by
  obtain ⟨-, -, -, -, -, -, e0, e1, -⟩ := idx_facts t
  show V m c main_call0_v1 (((cfg0.win 3).blk t).view.emb (ix2 k q)) = _
  have he : ((cfg0.win 3).blk t).view.emb (ix2 k q) = ix2 k q := funext fun a => Fin.ext (by
    match a with
    | ⟨0, _⟩ => show win0_3.index t (0 : Fin 2) * 2048 + 1 * k.val = k.val; omega
    | ⟨1, _⟩ => show win0_3.index t (1 : Fin 2) * 64 + 1 * q.val = q.val; omega)
  rw [he]
  exact wdt_at m c k q

theorem bdt_blk (c : Dev nD) (t : Fin cfg0.N) (q : Fin 64) :
    (iblk m c 4 t : Vec Ideal S1x64 .f32) (ix2 (0 : Fin 1) q) = m ((c : Thread nD τ).loc main_arg4) (ix1 q) := by
  obtain ⟨-, -, -, -, -, -, -, -, e0, e1, -⟩ := idx_facts t
  show V m c main_call0_v8 (((cfg0.win 4).blk t).view.emb (ix2 (0 : Fin 1) q)) = _
  have he : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 64 + 1 * q.val = q.val; omega)
  rw [he]
  exact bdt_at m c q

theorem wph_blk (c : Dev nD) (t : Fin cfg0.N) (k : Fin 2048) (q : Fin 64) :
    (iblk m c 5 t : Vec Ideal S2048x64 .bf16) (ix2 k q) = m ((c : Thread nD τ).loc main_arg5) (ix2 q k) := by
  obtain ⟨-, -, -, -, -, -, -, -, -, -, e0, e1, -⟩ := idx_facts t
  show V m c main_call0_v3 (((cfg0.win 5).blk t).view.emb (ix2 k q)) = _
  have he : ((cfg0.win 5).blk t).view.emb (ix2 k q) = ix2 k q := funext fun a => Fin.ext (by
    match a with
    | ⟨0, _⟩ => show win0_5.index t (0 : Fin 2) * 2048 + 1 * k.val = k.val; omega
    | ⟨1, _⟩ => show win0_5.index t (1 : Fin 2) * 64 + 1 * q.val = q.val; omega)
  rw [he]
  exact wph_at m c k q

theorem bph_blk (c : Dev nD) (t : Fin cfg0.N) (q : Fin 64) :
    (iblk m c 6 t : Vec Ideal S1x64 .f32) (ix2 (0 : Fin 1) q) = m ((c : Thread nD τ).loc main_arg6) (ix1 q) := by
  obtain ⟨-, -, -, -, -, -, -, -, -, -, -, -, e0, e1, -⟩ := idx_facts t
  show V m c main_call0_v9 (((cfg0.win 6).blk t).view.emb (ix2 (0 : Fin 1) q)) = _
  have he : ((cfg0.win 6).blk t).view.emb (ix2 (0 : Fin 1) q) = ix2 (0 : Fin 1) q := funext fun a => Fin.ext (by
    match a with
    | ⟨0, _⟩ => show win0_6.index t (0 : Fin 2) * 1 + 1 * 0 = 0; omega
    | ⟨1, _⟩ => show win0_6.index t (1 : Fin 2) * 64 + 1 * q.val = q.val; omega)
  rw [he]
  exact bph_at m c q

theorem wb_blk (c : Dev nD) (t : Fin cfg0.N) (k : Fin 2048) (q : Fin 64) :
    (iblk m c 7 t : Vec Ideal S2048x64 .bf16) (ix2 k q) = m ((c : Thread nD τ).loc main_arg7) (ix2 q k) := by
  obtain ⟨-, -, -, -, -, -, -, -, -, -, -, -, -, -, e0, e1, -⟩ := idx_facts t
  show V m c main_call0_v5 (((cfg0.win 7).blk t).view.emb (ix2 k q)) = _
  have he : ((cfg0.win 7).blk t).view.emb (ix2 k q) = ix2 k q := funext fun a => Fin.ext (by
    match a with
    | ⟨0, _⟩ => show win0_7.index t (0 : Fin 2) * 2048 + 1 * k.val = k.val; omega
    | ⟨1, _⟩ => show win0_7.index t (1 : Fin 2) * 64 + 1 * q.val = q.val; omega)
  rw [he]
  exact wb_at m c k q

theorem wc_blk (c : Dev nD) (t : Fin cfg0.N) (j : Fin 64) (d : Fin 2048) :
    (iblk m c 8 t : Vec Ideal S64x2048 .bf16) (ix2 j d) = m ((c : Thread nD τ).loc main_arg8) (ix2 d j) := by
  obtain ⟨-, -, -, -, -, -, -, -, -, -, -, -, -, -, -, -, e0, e1, -⟩ := idx_facts t
  show V m c main_call0_v7 (((cfg0.win 8).blk t).view.emb (ix2 j d)) = _
  have he : ((cfg0.win 8).blk t).view.emb (ix2 j d) = ix2 j d := funext fun a => Fin.ext (by
    match a with
    | ⟨0, _⟩ => show win0_8.index t (0 : Fin 2) * 64 + 1 * j.val = j.val; omega
    | ⟨1, _⟩ => show win0_8.index t (1 : Fin 2) * 2048 + 1 * d.val = d.val; omega)
  rw [he]
  exact wc_at m c j d

theorem aexp_blk (c : Dev nD) (t : Fin cfg0.N) (q : Fin 64) :
    (iblk m c 9 t : Vec Ideal S1x64 .f32) (ix2 (0 : Fin 1) q) = Ideal.exp (m ((c : Thread nD τ).loc main_arg9) (ix1 q)) := by
  obtain ⟨-, -, -, -, -, -, -, -, -, -, -, -, -, -, -, -, -, -, e0, e1, -⟩ := idx_facts t
  show V m c main_call0_v11 (((cfg0.win 9).blk t).view.emb (ix2 (0 : Fin 1) q)) = _
  have he : ((cfg0.win 9).blk t).view.emb (ix2 (0 : Fin 1) q) = ix2 (0 : Fin 1) q := funext fun a => Fin.ext (by
    match a with
    | ⟨0, _⟩ => show win0_9.index t (0 : Fin 2) * 1 + 1 * 0 = 0; omega
    | ⟨1, _⟩ => show win0_9.index t (1 : Fin 2) * 64 + 1 * q.val = q.val; omega)
  rw [he]
  exact aexp_at m c q

theorem aim_blk (c : Dev nD) (t : Fin cfg0.N) (q : Fin 64) :
    (iblk m c 10 t : Vec Ideal S1x64 .f32) (ix2 (0 : Fin 1) q) = m ((c : Thread nD τ).loc main_arg10) (ix1 q) := by
  obtain ⟨-, -, -, -, -, -, -, -, -, -, -, -, -, -, -, -, -, -, -, -, e0, e1, -⟩ := idx_facts t
  show V m c main_call0_v12 (((cfg0.win 10).blk t).view.emb (ix2 (0 : Fin 1) q)) = _
  have he : ((cfg0.win 10).blk t).view.emb (ix2 (0 : Fin 1) q) = ix2 (0 : Fin 1) q := funext fun a => Fin.ext (by
    match a with
    | ⟨0, _⟩ => show win0_10.index t (0 : Fin 2) * 1 + 1 * 0 = 0; omega
    | ⟨1, _⟩ => show win0_10.index t (1 : Fin 2) * 64 + 1 * q.val = q.val; omega)
  rw [he]
  exact aim_at m c q

/-! ## What each point writes back is its block of the whole-array function -/

theorem hz : (![0, 0] : Fin 2 → Nat) = fun _ => 0 := funext fun a => by fin_cases a <;> rfl

/-- The three result arrays of core `c` as functions of its argument arrays. -/
abbrev Gre (c : Dev nD) : S16384x64.Idx → EReal := reArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10))
abbrev Gim (c : Dev nD) : S16384x64.Idx → EReal := imArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
abbrev Gout (c : Dev nD) : S16384x2048.Idx → EReal := outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem flushed12_eq (c : Dev nD) (t : Fin cfg0.N) :
    (dats m 0 c).flushed 12 t = ((cfg0.win 12).blk t).view.read (Elt Ideal) (Gre m c) := by
  rw [flushed12]
  unfold out0_12
  rw [View.canon_unit_zero hz]
  simp only [View.ld_unit_zero (S := S512x2048) hz, View.ld_unit_zero (S := S512x64) hz, View.ld_unit_zero (S := S2048x64) hz,
    View.ld_unit_zero (S := S1x64) hz]
  refine funext fun (y : S512x64.Idx) => ?_
  obtain ⟨p, q, rfl⟩ : ∃ (p : Fin 512) (q : Fin 64), y = ix2 p q := ⟨y 0, y 1, eq_ix2 y⟩
  obtain ⟨-, -, -, -, -, -, -, -, -, -, -, -, -, -, -, -, -, -, -, -, -, -, -, -, -, -, h121, hb⟩ := idx_facts t
  have hbase : base t = win0_12.index t (0 : Fin 2) := rfl
  have hlt : base t * 512 + p.val < 16384 := by have := p.isLt; omega
  have he : ((cfg0.win 12).blk t).view.emb (ix2 p q) = ix2 (⟨base t * 512 + p.val, hlt⟩ : Fin 16384) q := funext fun a => Fin.ext (by
    match a with
    | ⟨0, _⟩ => show win0_12.index t (0 : Fin 2) * 512 + 1 * p.val = base t * 512 + p.val; omega
    | ⟨1, _⟩ => show win0_12.index t (1 : Fin 2) * 64 + 1 * q.val = q.val; omega)
  show k0_pay5 (k0_pay9 (iblk m c 0 t) (iblk m c 7 t)) (k0_pay10 (iblk m c 0 t) (iblk m c 3 t) (iblk m c 4 t)) (k0_pay11 (iblk m c 0 t) (iblk m c 5 t) (iblk m c 6 t))
      (k0_pay12 (iblk m c 0 t) (iblk m c 3 t) (iblk m c 4 t)) (iblk m c 9 t) (iblk m c 10 t) (iblk m c 1 t) (iblk m c 2 t) (ix2 p q)
    = Gre m c (((cfg0.win 12).blk t).view.emb (ix2 p q))
  rw [he]
  have hr : (⟨base t * 512 + p.val, hlt⟩ : Fin 16384).val = base t * 512 + p.val := rfl
  generalize (⟨base t * 512 + p.val, hlt⟩ : Fin 16384) = r at hr ⊢
  exact Cert.BlockStep.blk_re (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (iblk m c 0 t) (iblk m c 1 t) (iblk m c 2 t) (iblk m c 3 t) (iblk m c 4 t) (iblk m c 5 t) (iblk m c 6 t) (iblk m c 7 t) (iblk m c 9 t) (iblk m c 10 t) p r
    (fun k => x_blk m c t p r hr k) (fun q => sre_blk m c t p r hr q) (fun q => sim_blk m c t p r hr q) (fun k q => wdt_blk m c t k q) (fun q => bdt_blk m c t q) (fun k q => wph_blk m c t k q) (fun q => bph_blk m c t q) (fun k q => wb_blk m c t k q) (fun q => aexp_blk m c t q) (fun q => aim_blk m c t q) q

theorem flushed13_eq (c : Dev nD) (t : Fin cfg0.N) :
    (dats m 0 c).flushed 13 t = ((cfg0.win 13).blk t).view.read (Elt Ideal) (Gim m c) := by
  rw [flushed13]
  unfold out0_13
  rw [View.canon_unit_zero hz]
  simp only [View.ld_unit_zero (S := S512x2048) hz, View.ld_unit_zero (S := S512x64) hz, View.ld_unit_zero (S := S2048x64) hz,
    View.ld_unit_zero (S := S1x64) hz]
  refine funext fun (y : S512x64.Idx) => ?_
  obtain ⟨p, q, rfl⟩ : ∃ (p : Fin 512) (q : Fin 64), y = ix2 p q := ⟨y 0, y 1, eq_ix2 y⟩
  obtain ⟨-, -, -, -, -, -, -, -, -, -, -, -, -, -, -, -, -, -, -, -, -, -, -, -, h130, h131, -, hb⟩ := idx_facts t
  have hlt : base t * 512 + p.val < 16384 := by have := p.isLt; omega
  have he : ((cfg0.win 13).blk t).view.emb (ix2 p q) = ix2 (⟨base t * 512 + p.val, hlt⟩ : Fin 16384) q := funext fun a => Fin.ext (by
    match a with
    | ⟨0, _⟩ => show win0_13.index t (0 : Fin 2) * 512 + 1 * p.val = base t * 512 + p.val; omega
    | ⟨1, _⟩ => show win0_13.index t (1 : Fin 2) * 64 + 1 * q.val = q.val; omega)
  show k0_pay6 (k0_pay10 (iblk m c 0 t) (iblk m c 3 t) (iblk m c 4 t)) (k0_pay11 (iblk m c 0 t) (iblk m c 5 t) (iblk m c 6 t))
      (k0_pay12 (iblk m c 0 t) (iblk m c 3 t) (iblk m c 4 t)) (iblk m c 9 t) (iblk m c 10 t) (iblk m c 1 t) (iblk m c 2 t) (ix2 p q)
    = Gim m c (((cfg0.win 13).blk t).view.emb (ix2 p q))
  rw [he]
  have hr : (⟨base t * 512 + p.val, hlt⟩ : Fin 16384).val = base t * 512 + p.val := rfl
  generalize (⟨base t * 512 + p.val, hlt⟩ : Fin 16384) = r at hr ⊢
  exact Cert.BlockStep.blk_im (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (iblk m c 0 t) (iblk m c 1 t) (iblk m c 2 t) (iblk m c 3 t) (iblk m c 4 t) (iblk m c 5 t) (iblk m c 6 t) (iblk m c 9 t) (iblk m c 10 t) p r
    (fun k => x_blk m c t p r hr k) (fun q => sre_blk m c t p r hr q) (fun q => sim_blk m c t p r hr q) (fun k q => wdt_blk m c t k q) (fun q => bdt_blk m c t q) (fun k q => wph_blk m c t k q) (fun q => bph_blk m c t q) (fun q => aexp_blk m c t q) (fun q => aim_blk m c t q) q

theorem flushed11_eq (c : Dev nD) (t : Fin cfg0.N) :
    (dats m 0 c).flushed 11 t = ((cfg0.win 11).blk t).view.read (Elt Ideal) (Gout m c) := by
  rw [flushed11]
  unfold out0_11
  rw [View.canon_unit_zero hz]
  simp only [View.ld_unit_zero (S := S512x2048) hz, View.ld_unit_zero (S := S512x64) hz, View.ld_unit_zero (S := S2048x64) hz,
    View.ld_unit_zero (S := S1x64) hz, View.ld_unit_zero (S := S64x2048) hz]
  refine funext fun (y : S512x2048.Idx) => ?_
  obtain ⟨p, d, rfl⟩ : ∃ (p : Fin 512) (d : Fin 2048), y = ix2 p d := ⟨y 0, y 1, eq_ix2 y⟩
  obtain ⟨-, -, -, -, -, -, -, -, -, -, -, -, -, -, -, -, -, -, -, -, -, -, h110, h111, -, -, -, hb⟩ := idx_facts t
  have hlt : base t * 512 + p.val < 16384 := by have := p.isLt; omega
  have he : ((cfg0.win 11).blk t).view.emb (ix2 p d) = ix2 (⟨base t * 512 + p.val, hlt⟩ : Fin 16384) d := funext fun a => Fin.ext (by
    match a with
    | ⟨0, _⟩ => show win0_11.index t (0 : Fin 2) * 512 + 1 * p.val = base t * 512 + p.val; omega
    | ⟨1, _⟩ => show win0_11.index t (1 : Fin 2) * 2048 + 1 * d.val = d.val; omega)
  show k0_pay7 (k0_pay9 (iblk m c 0 t) (iblk m c 7 t)) (k0_pay10 (iblk m c 0 t) (iblk m c 3 t) (iblk m c 4 t)) (k0_pay11 (iblk m c 0 t) (iblk m c 5 t) (iblk m c 6 t))
      (k0_pay12 (iblk m c 0 t) (iblk m c 3 t) (iblk m c 4 t)) (iblk m c 9 t) (iblk m c 10 t) (iblk m c 1 t) (iblk m c 2 t) (iblk m c 8 t) (ix2 p d)
    = Gout m c (((cfg0.win 11).blk t).view.emb (ix2 p d))
  rw [he]
  have hr : (⟨base t * 512 + p.val, hlt⟩ : Fin 16384).val = base t * 512 + p.val := rfl
  generalize (⟨base t * 512 + p.val, hlt⟩ : Fin 16384) = r at hr ⊢
  exact Cert.BlockStep.blk_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (iblk m c 0 t) (iblk m c 1 t) (iblk m c 2 t) (iblk m c 3 t) (iblk m c 4 t) (iblk m c 5 t) (iblk m c 6 t) (iblk m c 7 t) (iblk m c 8 t) (iblk m c 9 t) (iblk m c 10 t) p r
    (fun k => x_blk m c t p r hr k) (fun q => sre_blk m c t p r hr q) (fun q => sim_blk m c t p r hr q) (fun k q => wdt_blk m c t k q) (fun q => bdt_blk m c t q) (fun k q => wph_blk m c t k q) (fun q => bph_blk m c t q) (fun k q => wb_blk m c t k q) (fun j d => wc_blk m c t j d) (fun q => aexp_blk m c t q) (fun q => aim_blk m c t q) d

/-! ## The blocks tile each result array -/

theorem mem_blk11 (t : Fin cfg0.N) (i : S16384x2048.Idx) :
    i ∈ ((cfg0.win 11).blk t).view.set ↔ ∀ a : Fin 2, win0_11.index t a * S512x2048.size a ≤ (i a).val ∧ (i a).val < win0_11.index t a * S512x2048.size a + S512x2048.size a := by
  show i ∈ ((View.whole main_v0_0).slice (win0_11.rect t)).set ↔ _
  rw [View.set_slice_whole, Rect.mem_set_unit]
  exact Iff.rfl

theorem mem_blk12 (t : Fin cfg0.N) (i : S16384x64.Idx) :
    i ∈ ((cfg0.win 12).blk t).view.set ↔ ∀ a : Fin 2, win0_12.index t a * S512x64.size a ≤ (i a).val ∧ (i a).val < win0_12.index t a * S512x64.size a + S512x64.size a := by
  show i ∈ ((View.whole main_v0_1).slice (win0_12.rect t)).set ↔ _
  rw [View.set_slice_whole, Rect.mem_set_unit]
  exact Iff.rfl

theorem mem_blk13 (t : Fin cfg0.N) (i : S16384x64.Idx) :
    i ∈ ((cfg0.win 13).blk t).view.set ↔ ∀ a : Fin 2, win0_13.index t a * S512x64.size a ≤ (i a).val ∧ (i a).val < win0_13.index t a * S512x64.size a + S512x64.size a := by
  show i ∈ ((View.whole main_v0_2).slice (win0_13.rect t)).set ↔ _
  rw [View.set_slice_whole, Rect.mem_set_unit]
  exact Iff.rfl

/-- Row i0 lies in the block of the point whose row block is i0 / 512. -/
theorem cover11 (i : S16384x2048.Idx) : ∃ t : Fin cfg0.N, (cfg0.win 11).flush t = true ∧ i ∈ ((cfg0.win 11).blk t).view.set := by
  have hi0 : (i 0).val < 16384 := (i 0).isLt
  have hi1 : (i 1).val < 2048 := (i 1).isLt
  obtain ⟨t, ht⟩ := idx_onto ⟨(i 0).val / 512, by omega⟩
  have ht' : base t = (i 0).val / 512 := ht
  obtain ⟨-, -, -, -, -, -, -, -, -, -, -, -, -, -, -, -, -, -, -, -, -, -, h110, h111, -, -, -, hb⟩ := idx_facts t
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 2048 ≤ (i 1).val ∧ (i 1).val < win0_11.index t (1 : Fin 2) * 2048 + 2048; omega

theorem cover12 (i : S16384x64.Idx) : ∃ t : Fin cfg0.N, (cfg0.win 12).flush t = true ∧ i ∈ ((cfg0.win 12).blk t).view.set := by
  have hi0 : (i 0).val < 16384 := (i 0).isLt
  have hi1 : (i 1).val < 64 := (i 1).isLt
  obtain ⟨t, ht⟩ := idx_onto ⟨(i 0).val / 512, by omega⟩
  have ht' : base t = (i 0).val / 512 := ht
  obtain ⟨-, -, -, -, -, -, -, -, -, -, -, -, -, -, -, -, -, -, -, -, -, -, -, -, -, -, h121, hb⟩ := idx_facts t
  have hbase : base t = win0_12.index t (0 : Fin 2) := rfl
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 64 ≤ (i 1).val ∧ (i 1).val < win0_12.index t (1 : Fin 2) * 64 + 64; omega

theorem cover13 (i : S16384x64.Idx) : ∃ t : Fin cfg0.N, (cfg0.win 13).flush t = true ∧ i ∈ ((cfg0.win 13).blk t).view.set := by
  have hi0 : (i 0).val < 16384 := (i 0).isLt
  have hi1 : (i 1).val < 64 := (i 1).isLt
  obtain ⟨t, ht⟩ := idx_onto ⟨(i 0).val / 512, by omega⟩
  have ht' : base t = (i 0).val / 512 := ht
  obtain ⟨-, -, -, -, -, -, -, -, -, -, -, -, -, -, -, -, -, -, -, -, -, -, -, -, h130, h131, -, hb⟩ := idx_facts t
  refine ⟨t, flush0_13 t, ?_⟩
  rw [mem_blk13]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 64 ≤ (i 1).val ∧ (i 1).val < win0_13.index t (1 : Fin 2) * 64 + 64; omega

/-! ## The arrays after the run, and the run -/

theorem final11 (c : Dev nD) : (dats m 0 c).arrAt 11 cfg0.N = Gout m c :=
  (dats m 0 c).arrAt_eq_of_cover 11 (Gout m c) (fun t _ => flushed11_eq m c t) cover11

theorem final12 (c : Dev nD) : (dats m 0 c).arrAt 12 cfg0.N = Gre m c :=
  (dats m 0 c).arrAt_eq_of_cover 12 (Gre m c) (fun t _ => flushed12_eq m c t) cover12

theorem final13 (c : Dev nD) : (dats m 0 c).arrAt 13 cfg0.N = Gim m c :=
  (dats m 0 c).arrAt_eq_of_cover 13 (Gim m c) (fun t _ => flushed13_eq m c t) cover13

/-- The first program's run with its three result arrays named as functions of the argument arrays. -/
theorem run : θ_run defs (onTc (τ := τ) (main (F := Ideal))) ⟨m, fun _ => 0, ρ⟩ fun r => ∀ c : Dev nD,
      r.2.mem ((c : Thread nD τ).loc main_v0_0) = Gout m c
      ∧ r.2.mem ((c : Thread nD τ).loc main_v0_1) = Gre m c
      ∧ r.2.mem ((c : Thread nD τ).loc main_v0_2) = Gim m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2.1.trans (final13 m c), (h c).2.2.2⟩)
    (Value.run_blocks m ρ)

end Cert.Blocks

end
-- ==== Proof.RefRead.lean ====
/-
  The second program's stages read at an entry.

  Each stage of the plain array program is a pointwise operation, a broadcast of a vector along the rows, a
  transposition, or a matrix product; read at row r and channel j (or feature d) the three results are the state
  step of Spec.lean at the projections of row r of x on row j of the weight matrices — the program transposes a
  [64, 2048] matrix before the product, so entry (k, j) of the transposed matrix is entry (j, k) of the given one.
-/
import proofs.«117804_j24653112279098_1_alg».proof.Proof.Gen.ReferenceIdeal.Read
import proofs.«117804_j24653112279098_1_alg».proof.Proof.Spec

noncomputable section

open scoped BigOperators

namespace Cert.RefRead

open Cert.ReferenceIdeal Cert.ReferenceIdeal.Read Cert.StateStep Idealize.ShloMosaic Idealize.ShloMosaic.ValueIdx

variable (x0 : (⟨S16384x2048, .f32⟩ : BufTy).Contents (Elt Ideal)) (x1 x2 : (⟨S16384x64, .f32⟩ : BufTy).Contents (Elt Ideal))
  (x3 : (⟨S64x2048, .f32⟩ : BufTy).Contents (Elt Ideal)) (x4 : (⟨S64, .f32⟩ : BufTy).Contents (Elt Ideal))
  (x5 : (⟨S64x2048, .f32⟩ : BufTy).Contents (Elt Ideal)) (x6 : (⟨S64, .f32⟩ : BufTy).Contents (Elt Ideal))
  (x7 : (⟨S64x2048, .f32⟩ : BufTy).Contents (Elt Ideal)) (x8 : (⟨S2048x64, .f32⟩ : BufTy).Contents (Elt Ideal))
  (x9 x10 : (⟨S64, .f32⟩ : BufTy).Contents (Elt Ideal))

/-! ## The three projections -/

theorem v1_at (r : Fin 16384) (j : Fin 64) : val_main_v1 (F := Ideal) x0 x3 (ix2 r j) = proj x0 x3 r j := by
  rw [val_main_v1_apply]
  refine Finset.sum_congr rfl fun k _ => ?_
  rw [val_main_v0_apply]
  have e1 : lidx_main_v1 (ix2 r j) k = ix2 r k := funext fun a => by match a with | ⟨0, _⟩ => rfl | ⟨1, _⟩ => rfl
  have e2 : idx_main_v0 (ridx_main_v1 (ix2 r j) k) = ix2 j k := funext fun a => by match a with | ⟨0, _⟩ => rfl | ⟨1, _⟩ => rfl
  rw [e1, e2]

theorem v7_at (r : Fin 16384) (j : Fin 64) : val_main_v7 (F := Ideal) x0 x5 (ix2 r j) = proj x0 x5 r j := by
  rw [val_main_v7_apply]
  refine Finset.sum_congr rfl fun k _ => ?_
  rw [val_main_v6_apply]
  have e1 : lidx_main_v7 (ix2 r j) k = ix2 r k := funext fun a => by match a with | ⟨0, _⟩ => rfl | ⟨1, _⟩ => rfl
  have e2 : idx_main_v6 (ridx_main_v7 (ix2 r j) k) = ix2 j k := funext fun a => by match a with | ⟨0, _⟩ => rfl | ⟨1, _⟩ => rfl
  rw [e1, e2]

theorem v25_at (r : Fin 16384) (j : Fin 64) : val_main_v25 (F := Ideal) x0 x7 (ix2 r j) = proj x0 x7 r j := by
  rw [val_main_v25_apply]
  refine Finset.sum_congr rfl fun k _ => ?_
  rw [val_main_v24_apply]
  have e1 : lidx_main_v25 (ix2 r j) k = ix2 r k := funext fun a => by match a with | ⟨0, _⟩ => rfl | ⟨1, _⟩ => rfl
  have e2 : idx_main_v24 (ridx_main_v25 (ix2 r j) k) = ix2 j k := funext fun a => by match a with | ⟨0, _⟩ => rfl | ⟨1, _⟩ => rfl
  rw [e1, e2]

/-! ## The vectors spread along the rows -/

theorem v3_at (r : Fin 16384) (j : Fin 64) : val_main_v3 (F := Ideal) x4 (ix2 r j) = x4 (ix1 j) := by
  rw [val_main_v3_apply, val_main_v2_apply]
  exact congrArg x4 (funext fun a => by match a with | ⟨0, _⟩ => rfl)

theorem v9_at (r : Fin 16384) (j : Fin 64) : val_main_v9 (F := Ideal) x6 (ix2 r j) = x6 (ix1 j) := by
  rw [val_main_v9_apply, val_main_v8_apply]
  exact congrArg x6 (funext fun a => by match a with | ⟨0, _⟩ => rfl)

theorem v17_at (r : Fin 16384) (j : Fin 64) : val_main_v17 (F := Ideal) x9 (ix2 r j) = Ideal.exp (x9 (ix1 j)) := by
  rw [val_main_v17_apply, val_main_v16_apply, val_main_v15_apply]
  exact congrArg (fun i => Ideal.exp (x9 i)) (funext fun a => by match a with | ⟨0, _⟩ => rfl)

theorem v21_at (r : Fin 16384) (j : Fin 64) : val_main_v21 (F := Ideal) x10 (ix2 r j) = x10 (ix1 j) := by
  rw [val_main_v21_apply, val_main_v20_apply]
  exact congrArg x10 (funext fun a => by match a with | ⟨0, _⟩ => rfl)

/-! ## The pointwise stages -/

/-- The step size: softplus of the first biased projection (the guard is on "d differs from itself"). -/
theorem v5_at (i : S16384x64.Idx) : val_main_v5 (F := Ideal) x0 x3 x4 i = softplus (val_main_v4 (F := Ideal) x0 x3 x4 i) :=
  softplus_neg (val_main_v4 (F := Ideal) x0 x3 x4 i)

/-- The phase. -/
theorem v13_at (i : S16384x64.Idx) : val_main_v13 (F := Ideal) x0 x5 x6 i = Ideal.tanh (val_main_v10 (F := Ideal) x0 x5 x6 i) * piWord := rfl

/-- The decay factor. -/
theorem v19_at (i : S16384x64.Idx) :
    val_main_v19 (F := Ideal) x0 x3 x4 x9 i = Ideal.exp (-(val_main_v5 (F := Ideal) x0 x3 x4 i) * val_main_v17 (F := Ideal) x9 i) := rfl

/-- The angle. -/
theorem v23_at (i : S16384x64.Idx) :
    val_main_v23 (F := Ideal) x0 x3 x4 x5 x6 x10 i
      = val_main_v5 (F := Ideal) x0 x3 x4 i * val_main_v21 (F := Ideal) x10 i + val_main_v13 (F := Ideal) x0 x5 x6 i := rfl

/-- THE NEW REAL PART at row r, channel j. -/
theorem re_at (r : Fin 16384) (j : Fin 64) :
    val_main_v32 (F := Ideal) x0 x1 x2 x3 x4 x5 x6 x7 x9 x10 (ix2 r j) = re x0 x1 x2 x3 x4 x5 x6 x7 x9 x10 r j := by
  show (x1 (ix2 r j) * Ideal.cos (val_main_v23 (F := Ideal) x0 x3 x4 x5 x6 x10 (ix2 r j))
        - x2 (ix2 r j) * Ideal.sin (val_main_v23 (F := Ideal) x0 x3 x4 x5 x6 x10 (ix2 r j)))
      * val_main_v19 (F := Ideal) x0 x3 x4 x9 (ix2 r j) + val_main_v25 (F := Ideal) x0 x7 (ix2 r j) = _
  rw [v23_at, v19_at, v13_at, v5_at, v17_at, v21_at, v25_at]
  show (x1 (ix2 r j) * Ideal.cos (softplus (val_main_v1 (F := Ideal) x0 x3 (ix2 r j) + val_main_v3 (F := Ideal) x4 (ix2 r j)) * x10 (ix1 j)
          + Ideal.tanh (val_main_v7 (F := Ideal) x0 x5 (ix2 r j) + val_main_v9 (F := Ideal) x6 (ix2 r j)) * piWord)
        - x2 (ix2 r j) * Ideal.sin (softplus (val_main_v1 (F := Ideal) x0 x3 (ix2 r j) + val_main_v3 (F := Ideal) x4 (ix2 r j)) * x10 (ix1 j)
          + Ideal.tanh (val_main_v7 (F := Ideal) x0 x5 (ix2 r j) + val_main_v9 (F := Ideal) x6 (ix2 r j)) * piWord))
      * Ideal.exp (-(softplus (val_main_v1 (F := Ideal) x0 x3 (ix2 r j) + val_main_v3 (F := Ideal) x4 (ix2 r j))) * Ideal.exp (x9 (ix1 j)))
      + proj x0 x7 r j = _
  rw [v1_at, v3_at, v7_at, v9_at]
  rfl

/-- THE NEW IMAGINARY PART at row r, channel j. -/
theorem im_at (r : Fin 16384) (j : Fin 64) :
    val_main_v36 (F := Ideal) x0 x1 x2 x3 x4 x5 x6 x9 x10 (ix2 r j) = im x0 x1 x2 x3 x4 x5 x6 x9 x10 r j := by
  show (x1 (ix2 r j) * Ideal.sin (val_main_v23 (F := Ideal) x0 x3 x4 x5 x6 x10 (ix2 r j))
        + x2 (ix2 r j) * Ideal.cos (val_main_v23 (F := Ideal) x0 x3 x4 x5 x6 x10 (ix2 r j)))
      * val_main_v19 (F := Ideal) x0 x3 x4 x9 (ix2 r j) = _
  rw [v23_at, v19_at, v13_at, v5_at, v17_at, v21_at]
  show (x1 (ix2 r j) * Ideal.sin (softplus (val_main_v1 (F := Ideal) x0 x3 (ix2 r j) + val_main_v3 (F := Ideal) x4 (ix2 r j)) * x10 (ix1 j)
          + Ideal.tanh (val_main_v7 (F := Ideal) x0 x5 (ix2 r j) + val_main_v9 (F := Ideal) x6 (ix2 r j)) * piWord)
        + x2 (ix2 r j) * Ideal.cos (softplus (val_main_v1 (F := Ideal) x0 x3 (ix2 r j) + val_main_v3 (F := Ideal) x4 (ix2 r j)) * x10 (ix1 j)
          + Ideal.tanh (val_main_v7 (F := Ideal) x0 x5 (ix2 r j) + val_main_v9 (F := Ideal) x6 (ix2 r j)) * piWord))
      * Ideal.exp (-(softplus (val_main_v1 (F := Ideal) x0 x3 (ix2 r j) + val_main_v3 (F := Ideal) x4 (ix2 r j))) * Ideal.exp (x9 (ix1 j))) = _
  rw [v1_at, v3_at, v7_at, v9_at]
  rfl

/-- THE OUTPUT at row r, feature d: the row's new real part against row d of the output weights. -/
theorem out_at (r : Fin 16384) (d : Fin 2048) :
    val_main_v38 (F := Ideal) x0 x1 x2 x3 x4 x5 x6 x7 x8 x9 x10 (ix2 r d) = out x0 x1 x2 x3 x4 x5 x6 x7 x8 x9 x10 r d := by
  rw [val_main_v38_apply]
  refine Finset.sum_congr rfl fun j _ => ?_
  rw [val_main_v37_apply]
  have e1 : lidx_main_v38 (ix2 r d) j = ix2 r j := funext fun a => by match a with | ⟨0, _⟩ => rfl | ⟨1, _⟩ => rfl
  have e2 : idx_main_v37 (ridx_main_v38 (ix2 r d) j) = ix2 d j := funext fun a => by match a with | ⟨0, _⟩ => rfl | ⟨1, _⟩ => rfl
  rw [e1, e2, re_at]

/-! ## The three results as whole arrays -/

theorem v32_eq : val_main_v32 (F := Ideal) x0 x1 x2 x3 x4 x5 x6 x7 x9 x10 = reArr x0 x1 x2 x3 x4 x5 x6 x7 x9 x10 := by
  funext i
  obtain ⟨r, j, rfl⟩ : ∃ (r : Fin 16384) (j : Fin 64), i = ix2 r j := ⟨i 0, i 1, eq_ix2 i⟩
  exact re_at x0 x1 x2 x3 x4 x5 x6 x7 x9 x10 r j

theorem v36_eq : val_main_v36 (F := Ideal) x0 x1 x2 x3 x4 x5 x6 x9 x10 = imArr x0 x1 x2 x3 x4 x5 x6 x9 x10 := by
  funext i
  obtain ⟨r, j, rfl⟩ : ∃ (r : Fin 16384) (j : Fin 64), i = ix2 r j := ⟨i 0, i 1, eq_ix2 i⟩
  exact im_at x0 x1 x2 x3 x4 x5 x6 x9 x10 r j

theorem v38_eq : val_main_v38 (F := Ideal) x0 x1 x2 x3 x4 x5 x6 x7 x8 x9 x10 = outArr x0 x1 x2 x3 x4 x5 x6 x7 x8 x9 x10 := by
  funext i
  obtain ⟨r, d, rfl⟩ : ∃ (r : Fin 16384) (d : Fin 2048), i = ix2 r d := ⟨i 0, i 1, eq_ix2 i⟩
  exact out_at x0 x1 x2 x3 x4 x5 x6 x7 x8 x9 x10 r d

end Cert.RefRead

end
-- ==== Proof.lean ====
/-
  One step of a complex-valued diagonal state update with input and output projections, for 16384 rows at once:
  two programs compute, from a [16384, 2048] input x, a [16384, 64] complex state (s_re, s_im), three [64, 2048]
  weight matrices with two bias vectors, a [2048, 64] output matrix and two vectors a_re, a_im,

    dt     = softplus (x W_dt^T + b_dt),         phase = tanh (x W_ph^T + b_ph) * pi,
    decay  = exp (-dt * exp a_re),               angle = dt * a_im + phase,
    new_re = (s_re cos angle - s_im sin angle) * decay + x W_B^T,
    new_im = (s_re sin angle + s_im cos angle) * decay,          out = new_re W_C^T.

  The first program works on 32 blocks of 512 rows, with the weight matrices transposed beforehand and the
  vectors laid as [1, 64] rows; the second is the formula applied to whole arrays.  On the extended reals both end
  with the same three arrays: entry by entry each is the function of Spec.lean of the row's three projections,
  a projection being one sum over the 2048 features (or, for the output, over the 64 channels) in either program;
  a matrix product onto a zero accumulator is that sum, a change of float format is the identity, and the two
  spellings of softplus and of negation agree.  No law used needs finiteness: the sums and products are the same
  terms on both sides.

  The modules: Spec (the entry functions and the two spellings of softplus), LibProductEntry (a product's entry as
  a sum over the contracted coordinate), KernelRead (the block computation at an entry), BlockStep (a block against
  the whole arrays), Blocks (the blocks tile the result arrays), RefRead (the array program's stages at an entry).
-/
import proofs.«117804_j24653112279098_1_alg».proof.Defs
import proofs.«117804_j24653112279098_1_alg».proof.Proof.Gen.Kernel
import proofs.«117804_j24653112279098_1_alg».proof.Proof.Gen.Kernel.Skeleton
import proofs.«117804_j24653112279098_1_alg».proof.Proof.Gen.Kernel.Launch
import proofs.«117804_j24653112279098_1_alg».proof.Proof.Gen.Kernel.Points
import proofs.«117804_j24653112279098_1_alg».proof.Proof.Gen.Kernel.Frame
import proofs.«117804_j24653112279098_1_alg».proof.Proof.Gen.KernelIdeal
import proofs.«117804_j24653112279098_1_alg».proof.Proof.Gen.KernelIdeal.Skeleton
import proofs.«117804_j24653112279098_1_alg».proof.Proof.Gen.KernelIdeal.Launch
import proofs.«117804_j24653112279098_1_alg».proof.Proof.Gen.KernelIdeal.Points
import proofs.«117804_j24653112279098_1_alg».proof.Proof.Gen.KernelIdeal.Frame
import proofs.«117804_j24653112279098_1_alg».proof.Proof.Gen.ReferenceIdeal
import proofs.«117804_j24653112279098_1_alg».proof.Proof.Gen.KernelIdeal.Value
import proofs.«117804_j24653112279098_1_alg».proof.Proof.Gen.ReferenceIdeal.Run
import proofs.«117804_j24653112279098_1_alg».proof.Proof.Gen.ReferenceIdeal.Read
import proofs.«117804_j24653112279098_1_alg».proof.Proof.Gen.Pre_finite_inputs
import proofs.«117804_j24653112279098_1_alg».proof.Proof.Blocks
import proofs.«117804_j24653112279098_1_alg».proof.Proof.RefRead
import Idealize.ShloMosaic.Adequacy
import Idealize.ShloMosaic.Init

noncomputable section

namespace Cert.Proof

open Idealize.ShloMosaic Idealize.SL.Sem Cert.Kernel

/-- The word-level program runs and leaves its arguments as they were. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The array program's run, its results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the eleven arguments both programs end with the three arrays of Spec.lean. -/
theorem algebraic : Cert.algebraic_KernelIdeal_ReferenceIdeal := by
  intro m ρ m' ρ' _ hagree
  refine ⟨fun c => Cert.Blocks.Gout m c, fun c => Cert.Blocks.Gre m c, fun c => Cert.Blocks.Gim m c, Cert.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨(h c).1.trans ?_, (h c).2.1.trans ?_, (h c).2.2.1.trans ?_, (h c).2.2.2⟩
  · rw [Cert.ReferenceIdeal.Read.val_main_v38_eq, Cert.RefRead.v38_eq, a0, a1, a2, a3, a4, a5, a6, a7, a8, a9, a10]
  · rw [Cert.ReferenceIdeal.Read.val_main_v32_eq, Cert.RefRead.v32_eq, a0, a1, a2, a3, a4, a5, a6, a7, a9, a10]
  · rw [Cert.ReferenceIdeal.Read.val_main_v36_eq, Cert.RefRead.v36_eq, a0, a1, a2, a3, a4, a5, a6, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
